-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  main_v8
-- ==== Kernel.lean ====
abbrev S8x4096x64 : Shape := ⟨3, ![8, 4096, 64]⟩
abbrev S8x4096x4096 : Shape := ⟨3, ![8, 4096, 4096]⟩
abbrev S1x2048x64 : Shape := ⟨3, ![1, 2048, 64]⟩
abbrev S1x2048x2048 : Shape := ⟨3, ![1, 2048, 2048]⟩
abbrev S2048x64 : Shape := ⟨2, ![2048, 64]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .bf16⟩
  | .hbm, ⟨3, _⟩ => ⟨S8x4096x64, .bf16⟩
  | .hbm, ⟨4, _⟩ => ⟨S8x4096x4096, .f32⟩
  | .local _ .vmem, ⟨0, _⟩ => ⟨S1x2048x64, .bf16⟩
  | .local _ .vmem, ⟨1, _⟩ => ⟨S1x2048x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x2048, .f32⟩
  | .local _ .vmem, ⟨5, _⟩ => ⟨S1x2048x2048, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x4096x64.size a
  hwx0_0 : ∀ i : grid0.Coords, EltTy.bits .bf16 = 32 ∨ (Rect.block (s := S8x4096x64) S1x2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x4096x64.size a
  hwx0_1 : ∀ i : grid0.Coords, EltTy.bits .bf16 = 32 ∨ (Rect.block (s := S8x4096x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S8x4096x4096.size a
  hwx0_2 : ∀ i : grid0.Coords, EltTy.bits .f32 = 32 ∨ (Rect.block (s := S8x4096x4096) S1x2048x2048.size (cc0_transform_2 i) (hinb0_2 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S8x4096x4096 : Shape := ⟨3, ![8, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x4096, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x64_S8x4096x64_S8x4096x4096_2_2_1_1_0_0_wf : DotDims.WF S8x4096x64 S8x4096x64 S8x4096x4096 [2] [2] [1] [1] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf

class Facts : Prop extends Facts₀ where

variable [Facts]
-- ==== Proof.Similarity.lean ====
/-
  The batched similarity of two arrays of row vectors. Both arrays hold, for each of 8 batches, 4096 rows of 64
  features. The similarity array holds, for a batch `β`, a row `n` of the first array and a row `m` of the second,
  the inner product of the two rows over the features,

      sim a b (β, n, m) = Σ_d a (β, n, d) · b (β, m, d),

  a finite sum of products on the extended reals. Addition and multiplication of extended reals are commutative and
  associative whatever the summands (an infinity included), so the sum is one number however it is grouped or ordered,
  and no finiteness of the entries is needed to speak of it.
-/
import Idealize.ShloMosaic.PureOps.Ideal
import Idealize.ShloMosaic.Lib.ValueIdx

noncomputable section

namespace Cert.Similarity

open Idealize.ShloMosaic Idealize.ShloMosaic.ValueIdx

/-- The similarity array of two arrays of row vectors: entry `(β, n, m)` is the inner product over the 64 features of
    row `n` of batch `β` of `a` with row `m` of batch `β` of `b`. -/
def sim (a b : (⟨3, ![8, 4096, 64]⟩ : Shape).Idx → EReal) : (⟨3, ![8, 4096, 4096]⟩ : Shape).Idx → EReal :=
  fun i => ∑ d : Fin 64, a (ix3 (n0 := 8) (n1 := 4096) (n2 := 64) (i 0) (i 1) d) * b (ix3 (n0 := 8) (n1 := 4096) (n2 := 64) (i 0) (i 2) d)

/-- The similarity at an entry given by its three coordinates. -/
theorem sim_apply (a b : (⟨3, ![8, 4096, 64]⟩ : Shape).Idx → EReal) (β : Fin 8) (n m : Fin 4096) :
    sim a b (ix3 β n m) = ∑ d : Fin 64, a (ix3 β n d) * b (ix3 β m d) := rfl

end Cert.Similarity

end
-- ==== Proof.KernelBlock.lean ====
/-
  One block of the kernel's output. At a grid point the body loads a block of 2048 rows of each operand (a leading axis
  of extent one, the batch, squeezed away), multiplies the first block by the transpose of the second on the matrix
  unit into a zero accumulator, and stores the 2048 × 2048 product under a leading unit axis. Read at the extended
  reals, entry `(0, p, q)` of what is stored is the accumulator's zero plus the sum over the 64 features `d` of the
  first block at `(0, p, d)` times the second block at `(0, q, d)`: the inner product of row `p` of the first block
  with row `q` of the second.
-/
import proofs.«145782_j76149770158251_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- A block of rows seen as a matrix: dropping the leading unit axis, entry `(p, d)` of the matrix is entry
    `(0, p, d)` of the block (the two have the same row-major position). -/
theorem rows_apply (x : Vec Ideal S1x2048x64 .bf16) (p : Fin 2048) (d : Fin 64) :
    shapeCast S2048x64 x shapeCasts_S1x2048x64_S2048x64 (ix2 p d) = x (ix3 (0 : Fin 1) p d) :=
  shapeCast_apply x shapeCasts_S1x2048x64_S2048x64 (ix2 p d) (ix3 (0 : Fin 1) p d) (by
    rw [Shape.rowMajor_val_three, Shape.rowMajor_val_two]
    show (0 * 2048 + p.val) * 64 + d.val = p.val * 64 + d.val
    omega)

/-- The left operand's row coordinate is the output entry's row: axis 0 of the first operand is kept, and is the
    output's axis 0. -/
theorem lhs_row (j : S2048x2048.Idx) (k : dot_S2048x64_S2048x64_S2048x2048_1_1_0_0_n_n.contr.Idx) : (dot_S2048x64_S2048x64_S2048x2048_1_1_0_0_n_n.lhsIdx j k 0).val = (j 0).val := by
  unfold DotDims.lhsIdx
  rw [dif_neg (show ¬(0 : Fin S2048x64.rank) ∈ dot_S2048x64_S2048x64_S2048x2048_1_1_0_0_n_n.lhsBatch by decide), dif_pos (show (0 : Fin S2048x64.rank) ∈ dot_S2048x64_S2048x64_S2048x2048_1_1_0_0_n_n.lhsNonContracting by decide)]
  rfl

/-- The left operand's feature coordinate is the contracted one. -/
theorem lhs_feature (j : S2048x2048.Idx) (k : dot_S2048x64_S2048x64_S2048x2048_1_1_0_0_n_n.contr.Idx) : (dot_S2048x64_S2048x64_S2048x2048_1_1_0_0_n_n.lhsIdx j k 1).val = (k ⟨0, by decide⟩).val :=
  dot_S2048x64_S2048x64_S2048x2048_1_1_0_0_n_n.lhsIdx_val_of_single rfl j k

/-- The right operand's row coordinate is the output entry's COLUMN: axis 0 of the second operand is kept, and is the
    output's axis 1 — the second block enters transposed. -/
theorem rhs_row (j : S2048x2048.Idx) (k : dot_S2048x64_S2048x64_S2048x2048_1_1_0_0_n_n.contr.Idx) : (dot_S2048x64_S2048x64_S2048x2048_1_1_0_0_n_n.rhsIdx j k 0).val = (j 1).val := by
  unfold DotDims.rhsIdx
  rw [dif_neg (show ¬(0 : Fin S2048x64.rank) ∈ dot_S2048x64_S2048x64_S2048x2048_1_1_0_0_n_n.rhsBatch by decide), dif_pos (show (0 : Fin S2048x64.rank) ∈ dot_S2048x64_S2048x64_S2048x2048_1_1_0_0_n_n.rhsNonContracting by decide)]
  rfl

/-- The right operand's feature coordinate is the contracted one. -/
theorem rhs_feature (j : S2048x2048.Idx) (k : dot_S2048x64_S2048x64_S2048x2048_1_1_0_0_n_n.contr.Idx) : (dot_S2048x64_S2048x64_S2048x2048_1_1_0_0_n_n.rhsIdx j k 1).val = (k ⟨0, by decide⟩).val :=
  dot_S2048x64_S2048x64_S2048x2048_1_1_0_0_n_n.rhsIdx_val_of_single rfl j k

/-- The left operand of the product at output entry `(p, q)` and contracted coordinate `d` is read at `(p, d)`. -/
theorem lhs_at (p q : Fin 2048) (d : Fin 64) :
    dot_S2048x64_S2048x64_S2048x2048_1_1_0_0_n_n.lhsIdx (ix2 p q) ((contrEquiv1 dot_S2048x64_S2048x64_S2048x2048_1_1_0_0_n_n 64 rfl rfl).symm d) = ix2 p d := by
  have hd := contrEquiv1_symm_val dot_S2048x64_S2048x64_S2048x2048_1_1_0_0_n_n 64 rfl rfl d
  exact funext fun a => Fin.ext (by
    match a with
    | ⟨0, _⟩ => exact lhs_row _ _
    | ⟨1, _⟩ => exact (lhs_feature _ _).trans hd)

/-- The right operand there is read at `(q, d)`. -/
theorem rhs_at (p q : Fin 2048) (d : Fin 64) :
    dot_S2048x64_S2048x64_S2048x2048_1_1_0_0_n_n.rhsIdx (ix2 p q) ((contrEquiv1 dot_S2048x64_S2048x64_S2048x2048_1_1_0_0_n_n 64 rfl rfl).symm d) = ix2 q d := by
  have hd := contrEquiv1_symm_val dot_S2048x64_S2048x64_S2048x2048_1_1_0_0_n_n 64 rfl rfl d
  exact funext fun a => Fin.ext (by
    match a with
    | ⟨0, _⟩ => exact rhs_row _ _
    | ⟨1, _⟩ => exact (rhs_feature _ _).trans hd)

/-- WHAT THE BODY STORES, entry by entry: the inner product over the 64 features of row `p` of the first loaded block
    with row `q` of the second (the zero accumulator adds nothing). -/
theorem stored_apply (x0 x1 : Vec Ideal S1x2048x64 .bf16) (z : Fin 1) (p q : Fin 2048) :
    k0_pay1 (F := Ideal) x0 x1 (ix3 z p q) = ∑ d : Fin 64, x0 (ix3 (0 : Fin 1) p d) * x1 (ix3 (0 : Fin 1) q d) := by
  unfold k0_pay1
  refine (shapeCast_apply _ shapeCasts_S2048x2048_S1x2048x2048 (ix3 z p q) (ix2 p q) ?_).trans ?_
  · rw [Shape.rowMajor_val_three, Shape.rowMajor_val_two]
    show p.val * 2048 + q.val = (z.val * 2048 + p.val) * 2048 + q.val
    have hz := z.isLt
    omega
  refine (Ideal.matmul_constant_zero_apply dot_S2048x64_S2048x64_S2048x2048_1_1_0_0_n_n none _ _ (ix2 p q)).trans ?_
  rw [← Equiv.sum_comp (contrEquiv1 dot_S2048x64_S2048x64_S2048x2048_1_1_0_0_n_n 64 rfl rfl).symm]
  refine Finset.sum_congr rfl fun d _ => ?_
  rw [lhs_at, rhs_at, rows_apply, rows_apply]

end Cert.KernelIdeal.Block

end
-- ==== Proof.KernelSimilarity.lean ====
/-
  The kernel's output array is the similarity array. The grid has 8 × 2 × 2 points `(β, I, J)`. At a point the first
  operand's window holds rows `2048·I … 2048·I + 2047` of batch `β` of the first array, the second operand's window rows
  `2048·J … 2048·J + 2047` of batch `β` of the second, and the output's window is the block of batch `β`, rows
  `2048·I …`, columns `2048·J …` of the output. The body stores there the inner products of the first window's rows
  with the second's, so entry `(0, p, q)` of the stored block is the similarity at `(β, 2048·I + p, 2048·J + q)`: what the
  point writes back is that block of the similarity array. The 32 blocks tile the output (the block that holds entry
  `(β, n, m)` is the one at `(β, n / 2048, m / 2048)`), so after the run the whole output array is the similarity array.
  The two arrays the windows read are the arguments rounded to a narrower format before the launch; on the extended
  reals that rounding is the identity, so they are the arguments themselves.
-/
import proofs.«145782_j76149770158251_2_alg».proof.Proof.Gen.KernelIdeal.Value
import proofs.«145782_j76149770158251_2_alg».proof.Proof.KernelBlock
import proofs.«145782_j76149770158251_2_alg».proof.Proof.Similarity
import Idealize.ShloMosaic.Lib.StableHlo.Run

noncomputable section

namespace Cert.KernelIdeal.SimValue

open Cert.KernelIdeal Cert.KernelIdeal.Gen Idealize.ShloMosaic Idealize.ShloMosaic.TcCoe Idealize.SL.Sem
open Idealize.ShloMosaic.ValueIdx Cert.Similarity
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-! ## The arrays the windows read are the arguments -/

/-- The first window's array is the first argument: the rounding before the launch is the identity on the extended reals. -/
theorem lhs_array (c : Dev nD) :
    (V m c main_v0 : S8x4096x64.Idx → EReal) = m ((c : Thread nD τ).loc main_arg0) := by
  dsimp only [Gen.V, Gen.hostOps0]; after_results; rfl

/-- The second window's array is the second argument. -/
theorem rhs_array (c : Dev nD) :
    (V m c main_v1 : S8x4096x64.Idx → EReal) = m ((c : Thread nD τ).loc main_arg1) := by
  dsimp only [Gen.V, Gen.hostOps0]; after_results; rfl

/-! ## Where the three windows sit at a grid point -/

/-- The printed index maps, decided over the 32 points: the first operand's block has the output block's batch and row
    block, the second operand's block has the output block's batch and, as ITS row block, the output's COLUMN block;
    neither moves along the features; and the output's block indices stay in their ranges. -/
theorem blocks_at : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0 :=
  (by decide +kernel : ∀ t : Fin grid0.N, _)

/-- Every block of the output is some point's. -/
theorem every_block : ∀ (β : Fin 8) (I : Fin 2) (J : Fin 2), ∃ t : Fin cfg0.N, win0_2.index t = ![β.val, I.val, J.val] :=
  (by decide +kernel : ∀ (β : Fin 8) (I : Fin 2) (J : Fin 2), ∃ t : Fin grid0.N, win0_2.index t = ![β.val, I.val, J.val])

/-! ## What a point writes back -/

/-- The first window's block at a point, at row `p` and feature `d`, is the first argument at the batch and row of the
    output block's entry `(z, p, q)` and feature `d`. -/
theorem lhs_block (c : Dev nD) (t : Fin cfg0.N) (z : Fin 1) (p q : Fin 2048) (d : Fin 64) :
    iblk m c 0 t (ix3 (0 : Fin 1) p d)
      = m ((c : Thread nD τ).loc main_arg0)
          (ix3 (n0 := 8) (n1 := 4096) (n2 := 64) ((((cfg0.win 2).blk t).view.emb (ix3 z p q)) 0) ((((cfg0.win 2).blk t).view.emb (ix3 z p q)) 1) d) := by
  obtain ⟨e0, e1, e2, e3, e4, e5⟩ := blocks_at t
  show V m c main_v0 (((cfg0.win 0).blk t).view.emb (ix3 (0 : Fin 1) p d)) = _
  rw [lhs_array]
  refine congrArg (m ((c : Thread nD τ).loc main_arg0)) (funext fun a => Fin.ext ?_)
  match a with
  | ⟨0, _⟩ =>
    show win0_0.index t (0 : Fin 3) * 1 + 1 * 0 = win0_2.index t (0 : Fin 3) * 1 + 1 * z.val
    have hz := z.isLt; omega
  | ⟨1, _⟩ =>
    show win0_0.index t (1 : Fin 3) * 2048 + 1 * p.val = win0_2.index t (1 : Fin 3) * 2048 + 1 * p.val
    omega
  | ⟨2, _⟩ =>
    show win0_0.index t (2 : Fin 3) * 64 + 1 * d.val = d.val
    omega

/-- The second window's block at a point, at row `q` and feature `d`, is the second argument at the batch and COLUMN
    of the output block's entry `(z, p, q)` and feature `d`. -/
theorem rhs_block (c : Dev nD) (t : Fin cfg0.N) (z : Fin 1) (p q : Fin 2048) (d : Fin 64) :
    iblk m c 1 t (ix3 (0 : Fin 1) q d)
      = m ((c : Thread nD τ).loc main_arg1)
          (ix3 (n0 := 8) (n1 := 4096) (n2 := 64) ((((cfg0.win 2).blk t).view.emb (ix3 z p q)) 0) ((((cfg0.win 2).blk t).view.emb (ix3 z p q)) 2) d) := by
  obtain ⟨e0, e1, e2, e3, e4, e5⟩ := blocks_at t
  show V m c main_v1 (((cfg0.win 1).blk t).view.emb (ix3 (0 : Fin 1) q d)) = _
  rw [rhs_array]
  refine congrArg (m ((c : Thread nD τ).loc main_arg1)) (funext fun a => Fin.ext ?_)
  match a with
  | ⟨0, _⟩ =>
    show win0_1.index t (0 : Fin 3) * 1 + 1 * 0 = win0_2.index t (0 : Fin 3) * 1 + 1 * z.val
    have hz := z.isLt; omega
  | ⟨1, _⟩ =>
    show win0_1.index t (1 : Fin 3) * 2048 + 1 * q.val = win0_2.index t (2 : Fin 3) * 2048 + 1 * q.val
    omega
  | ⟨2, _⟩ =>
    show win0_1.index t (2 : Fin 3) * 64 + 1 * d.val = d.val
    omega

/-- WHAT POINT `t` WRITES BACK is block `t` of the similarity array of the two arguments. -/
theorem flushed_eq (c : Dev nD) (t : Fin cfg0.N) :
    (dats m 0 c).flushed 2 t
      = ((cfg0.win 2).blk t).view.read (Elt Ideal) (sim (m ((c : Thread nD τ).loc main_arg0)) (m ((c : Thread nD τ).loc main_arg1))) := by
  rw [Cert.KernelIdeal.Value.flushed2]
  unfold out0_2
  rw [View.canon_unit_zero origin]
  simp only [View.ld_unit_zero (S := S1x2048x64) origin]
  have entry : ∀ y : S1x2048x2048.Idx, k0_pay1 (F := Ideal) (iblk m c 0 t) (iblk m c 1 t) y
      = sim (m ((c : Thread nD τ).loc main_arg0)) (m ((c : Thread nD τ).loc main_arg1)) (((cfg0.win 2).blk t).view.emb y) := by
    intro y
    obtain ⟨z, p, q, rfl⟩ : ∃ (z : Fin 1) (p q : Fin 2048), y = ix3 z p q := ⟨y 0, y 1, y 2, eq_ix3 y⟩
    refine (Cert.KernelIdeal.Block.stored_apply (iblk m c 0 t) (iblk m c 1 t) z p q).trans ?_
    exact Finset.sum_congr rfl fun d _ => congrArg₂ (· * ·) (lhs_block m c t z p q d) (rhs_block m c t z p q d)
  exact funext entry

/-! ## The blocks tile the output -/

/-- An entry of the output is in point `t`'s block iff each coordinate is in the block's range on its axis. -/
theorem mem_block (t : Fin cfg0.N) (i : S8x4096x4096.Idx) :
    i ∈ ((cfg0.win 2).blk t).view.set ↔ ∀ a : Fin 3, win0_2.index t a * S1x2048x2048.size a ≤ (i a).val ∧ (i a).val < win0_2.index t a * S1x2048x2048.size a + S1x2048x2048.size a := by
  show i ∈ ((View.whole main_v2).slice (win0_2.rect t)).set ↔ _
  rw [View.set_slice_whole, Rect.mem_set_unit]
  exact Iff.rfl

/-- Every entry `(β, n, m)` of the output is in a block that is written back: the one at `(β, n / 2048, m / 2048)`. -/
theorem covered (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := every_block ⟨(i 0).val, hi0⟩ ⟨(i 1).val / 2048, by omega⟩ ⟨(i 2).val / 2048, by omega⟩
  have q0 : win0_2.index t (0 : Fin 3) = (i 0).val := congrFun ht 0
  have q1 : win0_2.index t (1 : Fin 3) = (i 1).val / 2048 := congrFun ht 1
  have q2 : win0_2.index t (2 : Fin 3) = (i 2).val / 2048 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 2048 ≤ (i 2).val ∧ (i 2).val < win0_2.index t (2 : Fin 3) * 2048 + 2048
    omega

/-! ## The output array, and the run -/

/-- THE OUTPUT ARRAY after the run is the similarity array of the two arguments. -/
theorem output_eq (c : Dev nD) :
    (dats m 0 c).arrAt 2 cfg0.N = sim (m ((c : Thread nD τ).loc main_arg0)) (m ((c : Thread nD τ).loc main_arg1)) :=
  (dats m 0 c).arrAt_eq_of_cover 2 _ (fun t _ => flushed_eq m c t) covered

/-- Every weakly fair execution of the kernel's program terminates with the output array at the similarity array of the
    two arguments, and the arguments unchanged. -/
theorem run : θ_run defs (onTc (τ := τ) (main (F := Ideal))) ⟨m, fun _ => 0, ρ⟩ fun r => ∀ c : Dev nD,
      r.2.mem ((c : Thread nD τ).loc main_v2) = sim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (output_eq m c), (h c).2⟩)
    (Cert.KernelIdeal.Value.run_blocks m ρ)

end Cert.KernelIdeal.SimValue

end
-- ==== Proof.RefSimilarity.lean ====
/-
  The reference computes the similarity. Its one operation is a general dot product with the batch axis 0 of both
  operands paired, axis 2 of both contracted, and axis 1 of each kept: at the extended reals its entry `(β, n, m)` is the
  sum over the contracted coordinate `d` of the left operand at `(β, n, d)` times the right operand at `(β, m, d)`
  — term by term the inner product that `sim` names.
-/
import proofs.«145782_j76149770158251_2_alg».proof.Proof.Gen.ReferenceIdeal.Read
import proofs.«145782_j76149770158251_2_alg».proof.Proof.Similarity

noncomputable section

namespace Cert.ReferenceIdeal.RefValue

open Cert.ReferenceIdeal Cert.ReferenceIdeal.Gen Idealize.ShloMosaic Idealize.ShloMosaic.ValueIdx

/-- The reference's dot product of two arrays is their similarity array: at every entry both are the sum over the 64
    features of the products of the two rows' entries. -/
theorem dot_eq_sim (x0 x1 : (⟨S8x4096x64, .f32⟩ : BufTy).Contents (Elt Ideal)) :
    Read.val_main_v0 (F := Ideal) x0 x1 = Cert.Similarity.sim x0 x1 := by
  funext i
  rw [Read.val_main_v0_apply]
  show _ = ∑ d : Fin 64, x0 (ix3 (n0 := 8) (n1 := 4096) (n2 := 64) (i 0) (i 1) d) * x1 (ix3 (n0 := 8) (n1 := 4096) (n2 := 64) (i 0) (i 2) d)
  refine Finset.sum_congr rfl fun d _ => ?_
  have el : Read.lidx_main_v0 i d = ix3 (n0 := 8) (n1 := 4096) (n2 := 64) (i 0) (i 1) d :=
    funext fun a => Fin.ext (by match a with | ⟨0, _⟩ => rfl | ⟨1, _⟩ => rfl | ⟨2, _⟩ => rfl)
  have er : Read.ridx_main_v0 i d = ix3 (n0 := 8) (n1 := 4096) (n2 := 64) (i 0) (i 2) d :=
    funext fun a => Fin.ext (by match a with | ⟨0, _⟩ => rfl | ⟨1, _⟩ => rfl | ⟨2, _⟩ => rfl)
  rw [el, er]

end Cert.ReferenceIdeal.RefValue

end
-- ==== Proof.lean ====
/-
  The kernel computes, per batch, the matrix of inner products of the rows of its first argument with the rows of its
  second: it tiles the 8 × 4096 × 4096 output into 32 blocks of 2048 × 2048 entries of one batch, and at each block
  multiplies 2048 rows of the first argument by the transpose of 2048 rows of the second on the matrix unit, into a
  zero accumulator. The reference computes the same array by one general dot product over the whole arguments.

  On the extended reals both are the similarity array `sim a b (β, n, m) = Σ_d a (β, n, d) · b (β, m, d)`
  (Proof/Similarity.lean): an entry of the kernel's block is that sum over the rows the block's windows hold, and the
  blocks tile the output (Proof/KernelBlock.lean, Proof/KernelSimilarity.lean); an entry of the reference's dot product
  is that sum by definition of the contraction (Proof/RefSimilarity.lean). The two sums have the same terms in the same
  order, so no law of arithmetic joins them and the finiteness of the inputs is never used; the rounding of the
  arguments to a narrower format before the kernel's launch is the identity on the extended reals. The idealized kernel
  is the kernel's own text read at the extended reals (nothing was rewritten), so there is nothing to preserve. Each
  program terminates without a fault and leaves its arguments as they were.
-/
import proofs.«145782_j76149770158251_2_alg».proof.Defs
import proofs.«145782_j76149770158251_2_alg».proof.Proof.Gen.Kernel
import proofs.«145782_j76149770158251_2_alg».proof.Proof.Gen.Kernel.Frame
import proofs.«145782_j76149770158251_2_alg».proof.Proof.Gen.KernelIdeal
import proofs.«145782_j76149770158251_2_alg».proof.Proof.Gen.KernelIdeal.Frame
import proofs.«145782_j76149770158251_2_alg».proof.Proof.Gen.ReferenceIdeal
import proofs.«145782_j76149770158251_2_alg».proof.Proof.Gen.Pre_finite_inputs
import proofs.«145782_j76149770158251_2_alg».proof.Proof.Gen.KernelIdeal.Value
import proofs.«145782_j76149770158251_2_alg».proof.Proof.Gen.ReferenceIdeal.Run
import proofs.«145782_j76149770158251_2_alg».proof.Proof.Gen.ReferenceIdeal.Read
import proofs.«145782_j76149770158251_2_alg».proof.Proof.Similarity
import proofs.«145782_j76149770158251_2_alg».proof.Proof.KernelSimilarity
import proofs.«145782_j76149770158251_2_alg».proof.Proof.RefSimilarity

noncomputable section

namespace Cert.Proof

open Idealize.ShloMosaic Idealize.ShloMosaic.TcCoe Idealize.SL.Sem

/-- The kernel as printed runs to the end, nothing faulting, its arguments unchanged. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- So does the reference: its run to the dot product of its arguments, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the extended reals. -/
theorem preserves : Cert.preserves_Kernel_KernelIdeal := trivial

/-- From memories that agree on the two arguments, the kernel's output array and the reference's result are both the
    similarity array of the arguments. -/
theorem algebraic : Cert.algebraic_KernelIdeal_ReferenceIdeal := by
  intro m ρ m' ρ' _ hagree
  refine ⟨fun c => Cert.Similarity.sim
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.SimValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.ReferenceIdeal.RefValue.dot_eq_sim, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
